-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S1024x16 .f32) (main_arg8 : FVec F S1024 .f32) (main_v33 : IVec S_ 1) : IVec S_ 1 :=
  let main_v34 : FVec F S1024x16 .f32 := Host.absf main_arg7
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x16 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x8192x1024 .f32) (main_arg1 : FVec F S2048x1024 .f32) (main_arg2 : FVec F S2048 .f32) (main_arg3 : FVec F S1024x1024 .f32) (main_arg4 : FVec F S1024 .f32) (main_arg5 : FVec F S1024x1024 .f32) (main_arg6 : FVec F S1024 .f32) (main_arg7 : FVec F S1024x16 .f32) (main_arg8 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x8192x1024 : Shape := ⟨3, ![4, 8192, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S1024x16 : Shape := ⟨2, ![1024, 16]⟩
abbrev S32768x1024 : Shape := ⟨2, ![32768, 1024]⟩
abbrev S1024x2048 : Shape := ⟨2, ![1024, 2048]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 18
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S2048x1024, .f32⟩
  | .hbm, ⟨2, _⟩ => ⟨S2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S1024, .f32⟩
  | .hbm, ⟨9, _⟩ => ⟨S32768x1024, .f32⟩
  | .hbm, ⟨10, _⟩ => ⟨S1024x2048, .f32⟩
  | .hbm, ⟨11, _⟩ => ⟨S1024x2048, .bf16⟩
  | .hbm, ⟨12, _⟩ => ⟨S1024x1024, .f32⟩
  | .hbm, ⟨13, _⟩ => ⟨S1024x1024, .bf16⟩
  | .hbm, ⟨14, _⟩ => ⟨S1x2048, .f32⟩
  | .hbm, ⟨15, _⟩ => ⟨S1x1024, .f32⟩
  | .hbm, ⟨16, _⟩ => ⟨S32768x1024, .f32⟩
  | .hbm, ⟨17, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x8192x1024_S32768x1024 : S4x8192x1024.ShapeCasts S32768x1024
  transposes_S2048x1024_S1024x2048_1_0 : S2048x1024.Transposes [1, 0] S1024x2048
  bitsLt_bf16_f32 : FTy.bits .bf16 < FTy.bits .f32
  transposes_S1024x1024_S1024x1024_1_0 : S1024x1024.Transposes [1, 0] S1024x1024
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S4x8192x1024 : S32768x1024.ShapeCasts S4x8192x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S1024x16 : Shape := ⟨2, ![1024, 16]⟩
abbrev S4x8192x2048 : Shape := ⟨3, ![4, 8192, 2048]⟩
abbrev S1x1x2048 : Shape := ⟨3, ![1, 1, 2048]⟩
abbrev S_ : Shape := ⟨0, ![]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2048x1024, .f32⟩
  | .hbm, ⟨2, _⟩ => ⟨S2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S1024, .f32⟩
  | .hbm, ⟨9, _⟩ => ⟨S4x8192x2048, .f32⟩
  | .hbm, ⟨10, _⟩ => ⟨S1x1x2048, .f32⟩
  | .hbm, ⟨11, _⟩ => ⟨S4x8192x2048, .f32⟩
  | .hbm, ⟨12, _⟩ => ⟨S4x8192x2048, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  slices_S4x8192x2048_S4x8192x1024_0_0_0 : S4x8192x2048.Slices ![0, 0, 0] S4x8192x1024
  slices_S4x8192x2048_S4x8192x1024_0_0_1024 : S4x8192x2048.Slices ![0, 0, 1024] S4x8192x1024
  bcast_S_S4x8192x1024 : S_.BroadcastsInDim S4x8192x1024 (![] : Fin 0 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  dot_S4x8192x1024_S2048x1024_S4x8192x2048_2_1_01_0_n_n_wf : DotDims.WF S4x8192x1024 S2048x1024 S4x8192x2048 [2] [1] [0, 1] [0] [] []
  dot_S4x8192x1024_S1024x1024_S4x8192x1024_2_1_01_0_n_n_wf : DotDims.WF S4x8192x1024 S1024x1024 S4x8192x1024 [2] [1] [0, 1] [0] [] []

variable [Facts₀]

def dot_S4x8192x1024_S2048x1024_S4x8192x2048_2_1_01_0_n_n : DotDims S4x8192x1024 S2048x1024 S4x8192x2048 where
  lhsContracting := [2]
  rhsContracting := [1]
  lhsNonContracting := [0, 1]
  rhsNonContracting := [0]
  lhsBatch := []
  rhsBatch := []
  wf := dot_S4x8192x1024_S2048x1024_S4x8192x2048_2_1_01_0_n_n_wf
def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.Spec.lean ====
/-
  The function both programs compute, on the extended reals. A token's 1024 features are sent to 2048 numbers by a
  matrix–vector product plus a bias; the first 1024 and the last 1024 of them are each passed through z ↦ z · σ(z)
  (σ the logistic function) and multiplied entry by entry; the 1024 products are sent to 1024 numbers by a second
  matrix–vector product plus a bias.

  It is written twice. `rowOut` is the form a tile of rows computes: the tokens are the rows of a matrix [R, 1024], the two
  weight matrices are given transposed ([1024, 2048] and [1024, 1024]) and the biases as one-row matrices. `out` is the form
  the whole programs compute: the tokens are the pairs (b, l) of a [4, 8192, 1024] array, the weights [2048, 1024] and
  [1024, 1024] as given, the biases as vectors. `out_eq_rowOut` joins the two forms: they agree at a token whenever the row
  is the token's features and the second form's matrices are the transposes of the first's. No law of arithmetic is used:
  the two sides are the same sums of the same products in the same order, so nothing is asked of the inputs.
-/
import Idealize.ShloMosaic.PureOps.Ideal
import Idealize.ShloMosaic.Lib.ValueIdx

noncomputable section

namespace Cert.GatedProj

open Idealize.ShloMosaic Idealize.ShloMosaic.ValueIdx

/-- z · σ(z) on the extended reals, σ(z) = 1 / (1 + e^(-z)). -/
def silu (z : EReal) : EReal := z * Ideal.logistic z

/-! ## Over the rows of a matrix, the weights transposed -/

section Rows

variable {R : Nat}
variable (X : (⟨2, ![R, 1024]⟩ : Shape).Idx → EReal) (Wt : (⟨2, ![1024, 2048]⟩ : Shape).Idx → EReal)
  (b1 : (⟨2, ![1, 2048]⟩ : Shape).Idx → EReal) (Vt : (⟨2, ![1024, 1024]⟩ : Shape).Idx → EReal)
  (b2 : (⟨2, ![1, 1024]⟩ : Shape).Idx → EReal)

/-- Entry `e` of row `r`'s first projection: Σ_k X(r, k) · Wt(k, e), plus the bias. -/
def rowProj (r : Fin R) (e : Fin 2048) : EReal :=
  (∑ k : Fin 1024, X (ix2 r k) * Wt (ix2 k e)) + b1 (ix2 (0 : Fin 1) e)

/-- Entry `d` of row `r`'s gated vector: silu of entry `d` times silu of entry `1024 + d` of the projection. -/
def rowGate (r : Fin R) (d : Fin 1024) : EReal :=
  silu (rowProj X Wt b1 r ⟨d.val, Nat.lt_of_lt_of_le d.isLt (by decide)⟩)
    * silu (rowProj X Wt b1 r ⟨1024 + d.val, Nat.add_lt_add_left d.isLt 1024⟩)

/-- Entry `q` of row `r`'s result: Σ_d gate(r, d) · Vt(d, q), plus the second bias. -/
def rowOut (r : Fin R) (q : Fin 1024) : EReal :=
  (∑ d : Fin 1024, rowGate X Wt b1 r d * Vt (ix2 d q)) + b2 (ix2 (0 : Fin 1) q)

/-- The result as an array [R, 1024]. -/
def rowOutArr : (⟨2, ![R, 1024]⟩ : Shape).Idx → EReal := fun i => rowOut X Wt b1 Vt b2 (i 0) (i 1)

theorem rowOutArr_ix2 (r : Fin R) (q : Fin 1024) : rowOutArr X Wt b1 Vt b2 (ix2 r q) = rowOut X Wt b1 Vt b2 r q := rfl

end Rows

/-- A row's result reads the token matrix through that row only: two matrices (of any two heights) that agree along a
    row of each give the same result there. -/
theorem rowOut_congr_row {R R' : Nat} (X : (⟨2, ![R, 1024]⟩ : Shape).Idx → EReal) (X' : (⟨2, ![R', 1024]⟩ : Shape).Idx → EReal)
    (Wt : (⟨2, ![1024, 2048]⟩ : Shape).Idx → EReal) (b1 : (⟨2, ![1, 2048]⟩ : Shape).Idx → EReal)
    (Vt : (⟨2, ![1024, 1024]⟩ : Shape).Idx → EReal) (b2 : (⟨2, ![1, 1024]⟩ : Shape).Idx → EReal)
    (r : Fin R) (r' : Fin R') (h : ∀ k : Fin 1024, X (ix2 r k) = X' (ix2 r' k)) (q : Fin 1024) :
    rowOut X Wt b1 Vt b2 r q = rowOut X' Wt b1 Vt b2 r' q := by
  unfold rowOut rowGate rowProj
  simp only [h]

/-- The same with the four weight and bias arrays replaced by equal ones. -/
theorem rowOut_congr {R R' : Nat} (X : (⟨2, ![R, 1024]⟩ : Shape).Idx → EReal) (X' : (⟨2, ![R', 1024]⟩ : Shape).Idx → EReal)
    (Wt Wt' : (⟨2, ![1024, 2048]⟩ : Shape).Idx → EReal) (b1 b1' : (⟨2, ![1, 2048]⟩ : Shape).Idx → EReal)
    (Vt Vt' : (⟨2, ![1024, 1024]⟩ : Shape).Idx → EReal) (b2 b2' : (⟨2, ![1, 1024]⟩ : Shape).Idx → EReal)
    (r : Fin R) (r' : Fin R') (h : ∀ k : Fin 1024, X (ix2 r k) = X' (ix2 r' k))
    (hW : Wt = Wt') (hb1 : b1 = b1') (hV : Vt = Vt') (hb2 : b2 = b2') (q : Fin 1024) :
    rowOut X Wt b1 Vt b2 r q = rowOut X' Wt' b1' Vt' b2' r' q := by
  subst hW hb1 hV hb2
  exact rowOut_congr_row X X' Wt b1 Vt b2 r r' h q

/-! ## Over the tokens of a [4, 8192, 1024] array, the weights as given -/

section Tokens

variable (x : (⟨3, ![4, 8192, 1024]⟩ : Shape).Idx → EReal) (w : (⟨2, ![2048, 1024]⟩ : Shape).Idx → EReal)
  (bi : (⟨1, ![2048]⟩ : Shape).Idx → EReal) (v : (⟨2, ![1024, 1024]⟩ : Shape).Idx → EReal)
  (bo : (⟨1, ![1024]⟩ : Shape).Idx → EReal)

/-- Entry `e` of token (b, l)'s first projection: Σ_k x(b, l, k) · w(e, k), plus the bias. -/
def proj (b : Fin 4) (l : Fin 8192) (e : Fin 2048) : EReal :=
  (∑ k : Fin 1024, x (ix3 b l k) * w (ix2 e k)) + bi (ix1 e)

/-- Entry `d` of token (b, l)'s gated vector. -/
def gate (b : Fin 4) (l : Fin 8192) (d : Fin 1024) : EReal :=
  silu (proj x w bi b l ⟨d.val, Nat.lt_of_lt_of_le d.isLt (by decide)⟩)
    * silu (proj x w bi b l ⟨1024 + d.val, Nat.add_lt_add_left d.isLt 1024⟩)

/-- Entry `q` of token (b, l)'s result: Σ_d gate(b, l, d) · v(q, d), plus the second bias. -/
def out (b : Fin 4) (l : Fin 8192) (q : Fin 1024) : EReal :=
  (∑ d : Fin 1024, gate x w bi b l d * v (ix2 q d)) + bo (ix1 q)

/-- The result as an array [4, 8192, 1024]. -/
def outArr : (⟨3, ![4, 8192, 1024]⟩ : Shape).Idx → EReal := fun i => out x w bi v bo (i 0) (i 1) (i 2)

theorem outArr_ix3 (b : Fin 4) (l : Fin 8192) (q : Fin 1024) : outArr x w bi v bo (ix3 b l q) = out x w bi v bo b l q := rfl

end Tokens

/-- The two forms agree at a token whose features are the row, when the row form's matrices are the token form's
    transposed and its one-row biases hold the token form's bias vectors. -/
theorem out_eq_rowOut {R : Nat}
    (x : (⟨3, ![4, 8192, 1024]⟩ : Shape).Idx → EReal) (w : (⟨2, ![2048, 1024]⟩ : Shape).Idx → EReal)
    (bi : (⟨1, ![2048]⟩ : Shape).Idx → EReal) (v : (⟨2, ![1024, 1024]⟩ : Shape).Idx → EReal)
    (bo : (⟨1, ![1024]⟩ : Shape).Idx → EReal)
    (X : (⟨2, ![R, 1024]⟩ : Shape).Idx → EReal) (Wt : (⟨2, ![1024, 2048]⟩ : Shape).Idx → EReal)
    (b1 : (⟨2, ![1, 2048]⟩ : Shape).Idx → EReal) (Vt : (⟨2, ![1024, 1024]⟩ : Shape).Idx → EReal)
    (b2 : (⟨2, ![1, 1024]⟩ : Shape).Idx → EReal)
    (b : Fin 4) (l : Fin 8192) (r : Fin R)
    (hX : ∀ k : Fin 1024, X (ix2 r k) = x (ix3 b l k))
    (hW : ∀ (k : Fin 1024) (e : Fin 2048), Wt (ix2 k e) = w (ix2 e k))
    (hb1 : ∀ e : Fin 2048, b1 (ix2 (0 : Fin 1) e) = bi (ix1 e))
    (hV : ∀ (d : Fin 1024) (q : Fin 1024), Vt (ix2 d q) = v (ix2 q d))
    (hb2 : ∀ q : Fin 1024, b2 (ix2 (0 : Fin 1) q) = bo (ix1 q)) (q : Fin 1024) :
    rowOut X Wt b1 Vt b2 r q = out x w bi v bo b l q := by
  unfold rowOut rowGate rowProj out gate proj
  simp only [hX, hW, hb1, hV, hb2]

end Cert.GatedProj

end
-- ==== Proof.RefSide.lean ====
/-
  The reference program computes `GatedProj.outArr` of its five arguments. Its composed term is read one operation at a
  time (the generated read-at-an-index lemmas): the first contraction and its broadcast bias give `proj`; the two
  slices of the last axis are its entries d and 1024 + d; negate, exponential, add one and divide one by it spell the
  logistic function, so each slice times that quotient is `silu`; the product of the two is `gate`; the second
  contraction and its bias give `out`.
-/
import proofs.«141491_j53781580480966_1_alg».proof.Proof.Gen.ReferenceIdeal.Read
import proofs.«141491_j53781580480966_1_alg».proof.Proof.Spec

noncomputable section

namespace Cert.GatedProj.Ref

open Cert.ReferenceIdeal Cert.ReferenceIdeal.Read Idealize.ShloMosaic Idealize.ShloMosaic.ValueIdx Cert.GatedProj

/-- The f32 word of 1.0 is the extended real 1. -/
theorem one_word : Ideal.ofBits .f32 0x3F800000#32 = 1 := by
  simp [Ideal.ofBits, Ideal.ieee, -EReal.coe_mul]; norm_num

variable (x0 : S4x8192x1024.Idx → EReal) (x1 : S2048x1024.Idx → EReal) (x2 : S2048.Idx → EReal)
  (x3 : S1024x1024.Idx → EReal) (x4 : S1024.Idx → EReal)

/-- The biased first contraction at (b, l, e) is `proj`. -/
theorem v3_apply (b : Fin 4) (l : Fin 8192) (e : Fin 2048) :
    val_main_v3 (F := Ideal) x0 x1 x2 (ix3 b l e) = proj x0 x1 x2 b l e := by
  have el : ∀ k : Fin 1024, lidx_main_v0 (ix3 b l e) k = ix3 b l k := fun k =>
    funext fun a => by match a with | ⟨0, _⟩ => rfl | ⟨1, _⟩ => rfl | ⟨2, _⟩ => rfl
  have er : ∀ k : Fin 1024, ridx_main_v0 (ix3 b l e) k = ix2 e k := fun k =>
    funext fun a => by match a with | ⟨0, _⟩ => rfl | ⟨1, _⟩ => rfl
  have eb : idx_main_v1 (idx_main_v2 (ix3 b l e)) = ix1 e :=
    funext fun a => by match a with | ⟨0, _⟩ => rfl
  rw [val_main_v3_apply, val_main_v0_apply, val_main_v2_apply, val_main_v1_apply]
  simp only [el, er, eb]
  rfl

/-- One divided by one plus the exponential of the negated argument, as the host spells it, is the logistic function. -/
theorem host_logistic (z : EReal) :
    FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) z)))
      = Ideal.logistic z := by
  show Ideal.div (Ideal.ofBits .f32 0x3F800000#32) (Ideal.ofBits .f32 0x3F800000#32 + Ideal.exp (-z)) = Ideal.logistic z
  rw [one_word]
  rfl

/-- The gated product at (b, l, d) is `gate`. -/
theorem v14_apply (b : Fin 4) (l : Fin 8192) (d : Fin 1024) :
    val_main_v14 (F := Ideal) x0 x1 x2 (ix3 b l d) = gate x0 x1 x2 b l d := by
  have e4 : idx_main_v4 (ix3 b l d) = ix3 b l (⟨d.val, Nat.lt_of_lt_of_le d.isLt (by decide)⟩ : Fin 2048) :=
    funext fun a => by match a with | ⟨0, _⟩ => rfl | ⟨1, _⟩ => rfl | ⟨2, _⟩ => rfl
  have e5 : idx_main_v5 (ix3 b l d) = ix3 b l (⟨1024 + d.val, Nat.add_lt_add_left d.isLt 1024⟩ : Fin 2048) :=
    funext fun a => by match a with | ⟨0, _⟩ => rfl | ⟨1, _⟩ => rfl | ⟨2, _⟩ => rfl
  rw [val_main_v14_apply, val_main_v12_apply, val_main_v13_apply, val_main_v11_apply, val_main_call0_v5_apply,
    val_main_v10_apply, val_main_call0_v4_apply, val_main_cst_0_apply, val_main_call0_cst_0_apply,
    val_main_v9_apply, val_main_call0_v3_apply, val_main_v8_apply, val_main_call0_v2_apply, val_main_cst_apply,
    val_main_call0_cst_apply, val_main_v7_apply, val_main_call0_v1_apply, val_main_v6_apply, val_main_call0_v0_apply,
    val_main_v4_apply, val_main_v5_apply, e4, e5, v3_apply, v3_apply, host_logistic, host_logistic]
  rfl

/-- The reference's result array is `outArr` of its arguments. -/
theorem result_eq : val_main_v18 (F := Ideal) x0 x1 x2 x3 x4 = outArr x0 x1 x2 x3 x4 := by
  funext i
  obtain ⟨b, l, q, rfl⟩ : ∃ (b : Fin 4) (l : Fin 8192) (q : Fin 1024), i = ix3 b l q := ⟨i 0, i 1, i 2, eq_ix3 i⟩
  have el : ∀ k : Fin 1024, lidx_main_v15 (ix3 b l q) k = ix3 b l k := fun k =>
    funext fun a => by match a with | ⟨0, _⟩ => rfl | ⟨1, _⟩ => rfl | ⟨2, _⟩ => rfl
  have er : ∀ k : Fin 1024, ridx_main_v15 (ix3 b l q) k = ix2 q k := fun k =>
    funext fun a => by match a with | ⟨0, _⟩ => rfl | ⟨1, _⟩ => rfl
  have eb : idx_main_v16 (idx_main_v17 (ix3 b l q)) = ix1 q :=
    funext fun a => by match a with | ⟨0, _⟩ => rfl
  rw [val_main_v18_apply, val_main_v15_apply, val_main_v17_apply, val_main_v16_apply, outArr_ix3]
  simp only [el, er, eb, v14_apply]
  rfl

end Cert.GatedProj.Ref

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Tile.lean ====
/-
  What one tile of 512 rows computes. The body's stored value, read at row p and column q of the tile, is `rowOut` of
  the tile's five loaded blocks: the first matrix product with the broadcast bias row is `rowProj`; the two column
  slices, each times its logistic, multiplied together are `rowGate`; the second product with its bias row is
  `rowOut`. The changes of float format on the way into the products are the identity on the extended reals, and the
  zero accumulator of each product adds nothing.
-/
import proofs.«141491_j53781580480966_1_alg».proof.Proof.Gen.KernelIdeal.Skeleton
import proofs.«141491_j53781580480966_1_alg».proof.Proof.Spec
import proofs.«141491_j53781580480966_1_alg».proof.Proof.LibPlainMatmul
import Idealize.ShloMosaic.Lib.ValueLayout

noncomputable section

namespace Cert.GatedProj.Tile

open Cert.KernelIdeal Cert.KernelIdeal.Gen Idealize.ShloMosaic Idealize.ShloMosaic.ValueIdx Cert.GatedProj

/-- Both products have the dimension numbers of an ordinary matrix product. -/
theorem dot1_eq : dot_S512x1024_S1024x2048_S512x2048_1_0_0_1_n_n = DotDims.plain 512 1024 2048 := rfl
theorem dot2_eq : dot_S512x1024_S1024x1024_S512x1024_1_0_0_1_n_n = DotDims.plain 512 1024 1024 := rfl

/-- The first product plus its bias row, at (p, e): entry e of row p's projection. -/
theorem proj_apply (x0 : FVec Ideal S512x1024 .f32) (x1 : FVec Ideal S1024x2048 .bf16) (x2 : FVec Ideal S1x2048 .f32)
    (p : Fin 512) (e : Fin 2048) :
    addf (matmul dot_S512x1024_S1024x2048_S512x2048_1_0_0_1_n_n none
        (truncf .bf16 (shapeCast S512x1024 x0 shapeCasts_S512x1024_S512x1024) bitsLt_bf16_f32)
        (shapeCast S1024x2048 x1 shapeCasts_S1024x2048_S1024x2048) (constant (F := Ideal) S512x2048 .f32 0x00000000#32))
      (broadcastTo S512x2048 (shapeCast S1x2048 x2 shapeCasts_S1x2048_S1x2048) broadcasts_S1x2048_S512x2048) (ix2 p e)
      = rowProj x0 x1 x2 p e := by
  rw [shapeCast_self, shapeCast_self, shapeCast_self, dot1_eq]
  show FloatOps.matmul (DotDims.plain 512 1024 2048) none _ _ _ (ix2 p e) + broadcastTo S512x2048 x2 _ (ix2 p e) = _
  rw [matmul_plain_zero_apply, broadcastTo_1b_ab_apply]
  rfl

/-- The two halves of a projected row, each times its logistic, multiplied: at (p, d) the product of silu at column d
    and silu at column 1024 + d. -/
theorem gate_apply (v : FVec Ideal S512x2048 .f32) (p : Fin 512) (d : Fin 1024) :
    mulf (mulf (extractStridedSlice S512x1024 ![0, 0] v slices_S512x2048_o0_0_S512x1024)
          (logistic (extractStridedSlice S512x1024 ![0, 0] v slices_S512x2048_o0_0_S512x1024)))
        (mulf (extractStridedSlice S512x1024 ![0, 1024] v slices_S512x2048_o0_1024_S512x1024)
          (logistic (extractStridedSlice S512x1024 ![0, 1024] v slices_S512x2048_o0_1024_S512x1024))) (ix2 p d)
      = silu (v (ix2 p (⟨d.val, Nat.lt_of_lt_of_le d.isLt (by decide)⟩ : Fin 2048)))
        * silu (v (ix2 p (⟨1024 + d.val, Nat.add_lt_add_left d.isLt 1024⟩ : Fin 2048))) := by
  have e0 := slice2_axis1_apply 0 v slices_S512x2048_o0_0_S512x1024 p d
    (⟨d.val, Nat.lt_of_lt_of_le d.isLt (by decide)⟩ : Fin 2048) (Nat.zero_add _).symm
  have e1 := slice2_axis1_apply 1024 v slices_S512x2048_o0_1024_S512x1024 p d
    (⟨1024 + d.val, Nat.add_lt_add_left d.isLt 1024⟩ : Fin 2048) rfl
  show (extractStridedSlice S512x1024 ![0, 0] v _ (ix2 p d) * Ideal.logistic (extractStridedSlice S512x1024 ![0, 0] v _ (ix2 p d)))
      * (extractStridedSlice S512x1024 ![0, 1024] v _ (ix2 p d) * Ideal.logistic (extractStridedSlice S512x1024 ![0, 1024] v _ (ix2 p d))) = _
  rw [e0, e1]
  rfl

/-- The second product plus its bias row, at (p, q). -/
theorem out_apply (g : FVec Ideal S512x1024 .f32) (x3 : FVec Ideal S1024x1024 .bf16) (x4 : FVec Ideal S1x1024 .f32)
    (p : Fin 512) (q : Fin 1024) :
    addf (matmul dot_S512x1024_S1024x1024_S512x1024_1_0_0_1_n_n none (truncf .bf16 g bitsLt_bf16_f32)
        (shapeCast S1024x1024 x3 shapeCasts_S1024x1024_S1024x1024) (constant (F := Ideal) S512x1024 .f32 0x00000000#32))
      (broadcastTo S512x1024 (shapeCast S1x1024 x4 shapeCasts_S1x1024_S1x1024) broadcasts_S1x1024_S512x1024) (ix2 p q)
      = (∑ d : Fin 1024, g (ix2 p d) * x3 (ix2 d q)) + x4 (ix2 (0 : Fin 1) q) := by
  rw [shapeCast_self, shapeCast_self, dot2_eq]
  show FloatOps.matmul (DotDims.plain 512 1024 1024) none _ _ _ (ix2 p q) + broadcastTo S512x1024 x4 _ (ix2 p q) = _
  rw [matmul_plain_zero_apply, broadcastTo_1b_ab_apply]
  rfl

/-- The tile's stored value at (p, q) is `rowOut` of its five blocks. -/
theorem payload_apply (x0 : Vec Ideal S512x1024 .f32) (x1 : Vec Ideal S1024x2048 .bf16) (x2 : Vec Ideal S1x2048 .f32)
    (x3 : Vec Ideal S1024x1024 .bf16) (x4 : Vec Ideal S1x1024 .f32) (p : Fin 512) (q : Fin 1024) :
    k0_pay1 x0 x1 x2 x3 x4 (ix2 p q) = rowOut x0 x1 x2 x3 x4 p q := by
  unfold k0_pay1
  refine (out_apply _ x3 x4 p q).trans ?_
  unfold rowOut
  refine congrArg (· + x4 (ix2 (0 : Fin 1) q)) (Finset.sum_congr rfl fun d _ => ?_)
  refine congrArg (· * x3 (ix2 d q)) ?_
  refine (gate_apply _ p d).trans ?_
  unfold rowGate
  rw [proj_apply, proj_apply]

end Cert.GatedProj.Tile

end
-- ==== Proof.Blocks.lean ====
/-
  From tiles to the array. The result window's array [32768, 1024] is written in 64 tiles of 512 rows; the tile at grid
  point t is rows 512·t … 512·t + 511. The token matrix is read through the same rows; the two weight matrices and the
  two bias rows are read whole at every point. So what point t writes back is rows 512·t … of ONE array, `rowOutArr` of
  the five arrays as the region finds them, and since the tiles cover every row the window's array ends holding it.
-/
import proofs.«141491_j53781580480966_1_alg».proof.Proof.Gen.KernelIdeal.Frame
import proofs.«141491_j53781580480966_1_alg».proof.Proof.Tile
import Idealize.ShloMosaic.Lib.Pipeline.Value

noncomputable section

namespace Cert.GatedProj.Blocks

open Cert.KernelIdeal Cert.KernelIdeal.Gen Idealize.ShloMosaic Idealize.ShloMosaic.TcCoe Idealize.SL.Sem
open Idealize.ShloMosaic.ValueIdx Cert.GatedProj
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block indices, decided over the 64 grid points: the token matrix's and the result's tiles are at row-block t,
    every other window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the result window ends holding: `rowOutArr` of the five arrays the region finds. -/
def G (c : Dev nD) : S32768x1024.Idx → EReal :=
  rowOutArr (V m c main_v0 : S32768x1024.Idx → EReal) (V m c main_v2 : S1024x2048.Idx → EReal)
    (V m c main_v5 : S1x2048.Idx → EReal) (V m c main_v4 : S1024x1024.Idx → EReal) (V m c main_v6 : S1x1024.Idx → EReal)

/-- The token matrix's tile at point t, at (p, k), is the matrix at row 512·t + p. -/
theorem tokens_tile (c : Dev nD) (t : Fin cfg0.N) (p : Fin 512) (k : Fin 1024) (r : Fin 32768) (hr : r.val = 512 * t.val + p.val) :
    (iblk m c 0 t : S512x1024.Idx → EReal) (ix2 p k) = (V m c main_v0 : S32768x1024.Idx → EReal) (ix2 r k) := by
  obtain ⟨e0, e1, -⟩ := idx_facts t
  show (V m c main_v0 : S32768x1024.Idx → EReal) (((cfg0.win 0).blk t).view.emb (ix2 p k)) = _
  refine congrArg (V m c main_v0 : S32768x1024.Idx → EReal) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The first weight matrix's block at any point is the whole matrix. -/
theorem weights1_tile (c : Dev nD) (t : Fin cfg0.N) :
    (iblk m c 1 t : S1024x2048.Idx → EReal) = (V m c main_v2 : S1024x2048.Idx → EReal) := by
  obtain ⟨-, -, e0, e1, -⟩ := idx_facts t
  funext y
  show (V m c main_v2 : S1024x2048.Idx → EReal) (((cfg0.win 1).blk t).view.emb y) = _
  refine congrArg (V m c main_v2 : S1024x2048.Idx → EReal) (funext fun a => Fin.ext ?_)
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- The first bias row's block at any point is the whole row. -/
theorem bias1_tile (c : Dev nD) (t : Fin cfg0.N) :
    (iblk m c 2 t : S1x2048.Idx → EReal) = (V m c main_v5 : S1x2048.Idx → EReal) := by
  obtain ⟨-, -, -, -, e0, e1, -⟩ := idx_facts t
  funext y
  show (V m c main_v5 : S1x2048.Idx → EReal) (((cfg0.win 2).blk t).view.emb y) = _
  refine congrArg (V m c main_v5 : S1x2048.Idx → EReal) (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

/-- The second weight matrix's block at any point is the whole matrix. -/
theorem weights2_tile (c : Dev nD) (t : Fin cfg0.N) :
    (iblk m c 3 t : S1024x1024.Idx → EReal) = (V m c main_v4 : S1024x1024.Idx → EReal) := by
  obtain ⟨-, -, -, -, -, -, e0, e1, -⟩ := idx_facts t
  funext y
  show (V m c main_v4 : S1024x1024.Idx → EReal) (((cfg0.win 3).blk t).view.emb y) = _
  refine congrArg (V m c main_v4 : S1024x1024.Idx → EReal) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The second bias row's block at any point is the whole row. -/
theorem bias2_tile (c : Dev nD) (t : Fin cfg0.N) :
    (iblk m c 4 t : S1x1024.Idx → EReal) = (V m c main_v6 : S1x1024.Idx → EReal) := by
  obtain ⟨-, -, -, -, -, -, -, -, e0, e1, -⟩ := idx_facts t
  funext y
  show (V m c main_v6 : S1x1024.Idx → EReal) (((cfg0.win 4).blk t).view.emb y) = _
  refine congrArg (V m c main_v6 : S1x1024.Idx → EReal) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- What point t writes back is rows 512·t … 512·t + 511 of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x2048) hz, View.ld_unit_zero (S := S1x2048) hz,
    View.ld_unit_zero (S := S1024x1024) hz, View.ld_unit_zero (S := S1x1024) hz]
  obtain ⟨-, -, -, -, -, -, -, -, -, -, e0, e1⟩ := idx_facts t
  funext j
  obtain ⟨p, q, rfl⟩ : ∃ (p : Fin 512) (q : Fin 1024), j = ix2 p q := ⟨j 0, j 1, eq_ix2 j⟩
  have ht : t.val < 64 := lt_of_lt_of_eq t.isLt N_0
  have hr : ((cfg0.win 5).blk t).view.emb (ix2 p q) = ix2 (⟨512 * t.val + p.val, by have := p.isLt; omega⟩ : Fin 32768) q :=
    funext fun a => Fin.ext (by
      match a with
      | ⟨0, _⟩ => show win0_5.index t (0 : Fin 2) * 512 + 1 * p.val = 512 * t.val + p.val; omega
      | ⟨1, _⟩ => show win0_5.index t (1 : Fin 2) * 1024 + 1 * q.val = q.val; omega)
  show k0_pay1 (iblk m c 0 t) (iblk m c 1 t) (iblk m c 2 t) (iblk m c 3 t) (iblk m c 4 t) (ix2 p q)
      = G m c (((cfg0.win 5).blk t).view.emb (ix2 p q))
  rw [hr]
  refine (Tile.payload_apply _ _ _ _ _ p q).trans ?_
  unfold G
  rw [rowOutArr_ix2]
  exact rowOut_congr _ _ _ _ _ _ _ _ _ _ p _ (fun k => tokens_tile m c t p k _ rfl)
    (weights1_tile m c t) (bias1_tile m c t) (weights2_tile m c t) (bias2_tile m c t) q

/-- An index of the array is in point t's tile iff each coordinate is in the tile's range on its axis. -/
theorem mem_blk (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7).slice (win0_5.rect t)).set ↔ _
  rw [View.set_slice_whole, Rect.mem_set_unit]
  exact Iff.rfl

/-- Row r of the array is in the tile of point r / 512. -/
theorem cover (i : S32768x1024.Idx) :
    ∃ t : Fin cfg0.N, (cfg0.win 5).flush t = true ∧ i ∈ ((cfg0.win 5).blk t).view.set := by
  have h0 : (i 0).val < 32768 := (i 0).isLt
  have h1 : (i 1).val < 1024 := (i 1).isLt
  have hN : cfg0.N = 64 := N_0
  have hlt : (i 0).val / 512 < cfg0.N := by rw [hN]; omega
  refine ⟨⟨(i 0).val / 512, hlt⟩, flush0_5 _, ?_⟩
  rw [mem_blk]
  obtain ⟨-, -, -, -, -, -, -, -, -, -, e0, e1⟩ := idx_facts ⟨(i 0).val / 512, hlt⟩
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, hlt⟩ (1 : Fin 2) * 1024 ≤ (i 1).val
      ∧ (i 1).val < win0_5.index ⟨(i 0).val / 512, hlt⟩ (1 : Fin 2) * 1024 + 1024
    rw [e1]
    omega

/-- The result window's array after the run is `G`. -/
theorem final (c : Dev nD) : (dats m 0 c).arrAt 5 cfg0.N = G m c :=
  (dats m 0 c).arrAt_eq_of_cover 5 (G m c) (fun t _ => flushed_eq m c t) cover

end Cert.GatedProj.Blocks

end
-- ==== Proof.Whole.lean ====
/-
  The whole kernel program. Before the tiled region the program lays its arguments out for it: the [4, 8192, 1024]
  tokens as a [32768, 1024] matrix (token (b, l) is row 8192·b + l), each weight matrix transposed (and changed in
  float format, the identity on the extended reals), each bias vector as a one-row matrix. After the region it reads
  the [32768, 1024] result back as [4, 8192, 1024]. So the program's result at (b, l, q) is the tiled region's array
  at row 8192·b + l, which is `rowOut` of the laid-out arrays there, which is `out` of the arguments at (b, l, q).
-/
import proofs.«141491_j53781580480966_1_alg».proof.Proof.Gen.KernelIdeal.Frame
import proofs.«141491_j53781580480966_1_alg».proof.Proof.Blocks
import Idealize.ShloMosaic.Lib.ValueLayout
import Idealize.ShloMosaic.Lib.StableHlo.Run

noncomputable section

namespace Cert.GatedProj.Whole

open Cert.KernelIdeal Cert.KernelIdeal.Gen Idealize.ShloMosaic Idealize.ShloMosaic.TcCoe Idealize.SL.Sem
open Idealize.ShloMosaic.ValueIdx Idealize.ShloMosaic.StableHlo Cert.GatedProj
open Idealize.ShloMosaic.Pipeline (Dat)

variable (m : (ℓ : Loc nD τ sig) → Buf (Elt Ideal) ℓ) (ρ : Dev nD → PrngReg)

/-! ## The arrays the region finds -/

/-- The token matrix is the tokens array in row-major order. -/
theorem tokens_entry (c : Dev nD) : (V m c main_v0 : S32768x1024.Idx → EReal)
    = shapeCast S32768x1024 (m ((c : Thread nD τ).loc main_arg0) : S4x8192x1024.Idx → EReal) shapeCasts_S4x8192x1024_S32768x1024 := by
  show StableHlo.after hostOps0 (fun b => m (c, b)) (Proc.devRef .tc main_v0) = _
  after_results <;> rfl

/-- The first weight matrix is the first weights argument transposed. -/
theorem weights1_entry (c : Dev nD) : (V m c main_v2 : S1024x2048.Idx → EReal)
    = truncf (F := Ideal) .bf16 (transpose S1024x2048 [1, 0] (m ((c : Thread nD τ).loc main_arg1) : S2048x1024.Idx → EReal)
        transposes_S2048x1024_S1024x2048_1_0) bitsLt_bf16_f32 := by
  show StableHlo.after hostOps0 (fun b => m (c, b)) (Proc.devRef .tc main_v2) = _
  after_results <;> rfl

/-- The first bias row is the first bias argument. -/
theorem bias1_entry (c : Dev nD) : (V m c main_v5 : S1x2048.Idx → EReal)
    = shapeCast S1x2048 (m ((c : Thread nD τ).loc main_arg2) : S2048.Idx → EReal) shapeCasts_S2048_S1x2048 := by
  show StableHlo.after hostOps0 (fun b => m (c, b)) (Proc.devRef .tc main_v5) = _
  after_results <;> rfl

/-- The second weight matrix is the second weights argument transposed. -/
theorem weights2_entry (c : Dev nD) : (V m c main_v4 : S1024x1024.Idx → EReal)
    = truncf (F := Ideal) .bf16 (transpose S1024x1024 [1, 0] (m ((c : Thread nD τ).loc main_arg3) : S1024x1024.Idx → EReal)
        transposes_S1024x1024_S1024x1024_1_0) bitsLt_bf16_f32 := by
  show StableHlo.after hostOps0 (fun b => m (c, b)) (Proc.devRef .tc main_v4) = _
  after_results <;> rfl

/-- The second bias row is the second bias argument. -/
theorem bias2_entry (c : Dev nD) : (V m c main_v6 : S1x1024.Idx → EReal)
    = shapeCast S1x1024 (m ((c : Thread nD τ).loc main_arg4) : S1024.Idx → EReal) shapeCasts_S1024_S1x1024 := by
  show StableHlo.after hostOps0 (fun b => m (c, b)) (Proc.devRef .tc main_v6) = _
  after_results <;> rfl

/-! ## The layout operations at an index -/

/-- Row 8192·b + l of the row-major token matrix is token (b, l). -/
theorem tokens_row (x : S4x8192x1024.Idx → EReal) (b : Fin 4) (l : Fin 8192) (k : Fin 1024) (r : Fin 32768)
    (hr : r.val = 8192 * b.val + l.val) :
    shapeCast S32768x1024 x shapeCasts_S4x8192x1024_S32768x1024 (ix2 r k) = x (ix3 b l k) :=
  shapeCast_apply x _ _ _ (by
    rw [Shape.rowMajor_val_three, Shape.rowMajor_val_two]
    show (b.val * 8192 + l.val) * 1024 + k.val = r.val * 1024 + k.val
    rw [hr]; ring)

/-- The [4, 8192, 1024] reading of a [32768, 1024] matrix at (b, l, q) is the matrix at (8192·b + l, q). -/
theorem result_row (y : S32768x1024.Idx → EReal) (b : Fin 4) (l : Fin 8192) (q : Fin 1024) (r : Fin 32768)
    (hr : r.val = 8192 * b.val + l.val) :
    shapeCast S4x8192x1024 y shapeCasts_S32768x1024_S4x8192x1024 (ix3 b l q) = y (ix2 r q) :=
  shapeCast_apply y _ _ _ (by
    rw [Shape.rowMajor_val_three, Shape.rowMajor_val_two]
    show r.val * 1024 + q.val = (b.val * 8192 + l.val) * 1024 + q.val
    rw [hr]; ring)

/-! ## The program's result -/

/-- The program's result array is the region's result matrix read as [4, 8192, 1024]. -/
theorem tail_eq (c : Dev nD) :
    Pipeline.afterTail₀ cfgs (dats m) 0 (V0 m) [hostOps1] c main_v8
      = shapeCast S4x8192x1024 (Blocks.G m c) shapeCasts_S32768x1024_S4x8192x1024 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = Blocks.G m c :=
    (Pipeline.withArrays_arr spec0 launch0.win.arr_inj c _ _ 5).trans (Blocks.final m c)
  rw [hw]
  rfl

/-- … which is `outArr` of the five arguments the result depends on. -/
theorem result_eq (c : Dev nD) :
    shapeCast S4x8192x1024 (Blocks.G m c) shapeCasts_S32768x1024_S4x8192x1024
      = outArr (m ((c : Thread nD τ).loc main_arg0) : S4x8192x1024.Idx → EReal)
          (m ((c : Thread nD τ).loc main_arg1) : S2048x1024.Idx → EReal)
          (m ((c : Thread nD τ).loc main_arg2) : S2048.Idx → EReal)
          (m ((c : Thread nD τ).loc main_arg3) : S1024x1024.Idx → EReal)
          (m ((c : Thread nD τ).loc main_arg4) : S1024.Idx → EReal) := by
  funext i
  obtain ⟨b, l, q, rfl⟩ : ∃ (b : Fin 4) (l : Fin 8192) (q : Fin 1024), i = ix3 b l q := ⟨i 0, i 1, i 2, eq_ix3 i⟩
  have hlt : 8192 * b.val + l.val < 32768 := by have := b.isLt; have := l.isLt; omega
  rw [result_row _ b l q ⟨8192 * b.val + l.val, hlt⟩ rfl, outArr_ix3]
  unfold Blocks.G
  rw [rowOutArr_ix2, tokens_entry, weights1_entry, bias1_entry, weights2_entry, bias2_entry]
  refine out_eq_rowOut _ _ _ _ _ _ _ _ _ _ b l _ (fun k => tokens_row _ b l k _ rfl) (fun k e => ?_) (fun e => ?_)
    (fun d q' => ?_) (fun q' => ?_) q
  · exact transpose_ix2_apply _ transposes_S2048x1024_S1024x2048_1_0 k e
  · exact shapeCast_a_1a_apply _ shapeCasts_S2048_S1x2048 (0 : Fin 1) e
  · exact transpose_ix2_apply _ transposes_S1024x1024_S1024x1024_1_0 d q'
  · exact shapeCast_a_1a_apply _ shapeCasts_S1024_S1x1024 (0 : Fin 1) q'

/-- The kernel program's run, read: every weakly fair execution ends with the result array at `outArr` of the
    arguments, and the arguments as they were. -/
theorem run : θ_run defs (onTc (τ := τ) (main (F := Ideal))) ⟨m, fun _ => 0, ρ⟩ fun r => ∀ c : Dev nD,
      r.2.mem ((c.tc : Thread nD τ).loc main_v8)
        = outArr (m ((c : Thread nD τ).loc main_arg0) : S4x8192x1024.Idx → EReal)
          (m ((c : Thread nD τ).loc main_arg1) : S2048x1024.Idx → EReal)
          (m ((c : Thread nD τ).loc main_arg2) : S2048.Idx → EReal)
          (m ((c : Thread nD τ).loc main_arg3) : S1024x1024.Idx → EReal)
          (m ((c : Thread nD τ).loc main_arg4) : S1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v8 (Pipeline.mem_restRefs_of main_v8 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.GatedProj.Whole

end
-- ==== Proof.lean ====
/-
  The kernel and its reference compute one function of their arguments on the extended reals.

  Each token's 1024 features are sent to 2048 numbers (a product with the first weight matrix plus a bias), the two
  halves are passed through z ↦ z · σ(z) and multiplied, and the 1024 products are sent through the second weight matrix
  plus a bias (Proof/Spec.lean: `GatedProj.outArr`). The reference does this on the whole [4, 8192, 1024] array, with the
  logistic function spelt 1 / (1 + e^(-z)) (Proof/RefSide.lean). The kernel lays the tokens out as the 32768 rows of a
  matrix, transposes the weights, computes 64 tiles of 512 rows each (Proof/Tile.lean: what a tile computes;
  Proof/Blocks.lean: the tiles make one array) and reads the result back as [4, 8192, 1024] (Proof/Whole.lean). The two
  results are the same sums of the same products, entry by entry, so nothing is asked of the inputs beyond the stated
  precondition, which the equality does not use. The kernel's changes of float format are the identity on the extended
  reals and the idealized kernel is the kernel's own text, so there is nothing to show for `preserves`. The three frames
  are the generated ones; the reference's is its generated run with the result dropped.
-/
import proofs.«141491_j53781580480966_1_alg».proof.Defs
import proofs.«141491_j53781580480966_1_alg».proof.Proof.Gen.Kernel
import proofs.«141491_j53781580480966_1_alg».proof.Proof.Gen.Kernel.Skeleton
import proofs.«141491_j53781580480966_1_alg».proof.Proof.Gen.Kernel.Launch
import proofs.«141491_j53781580480966_1_alg».proof.Proof.Gen.Kernel.Points
import proofs.«141491_j53781580480966_1_alg».proof.Proof.Gen.Kernel.Frame
import proofs.«141491_j53781580480966_1_alg».proof.Proof.Gen.KernelIdeal
import proofs.«141491_j53781580480966_1_alg».proof.Proof.Gen.KernelIdeal.Skeleton
import proofs.«141491_j53781580480966_1_alg».proof.Proof.Gen.KernelIdeal.Launch
import proofs.«141491_j53781580480966_1_alg».proof.Proof.Gen.KernelIdeal.Points
import proofs.«141491_j53781580480966_1_alg».proof.Proof.Gen.KernelIdeal.Frame
import proofs.«141491_j53781580480966_1_alg».proof.Proof.Gen.ReferenceIdeal
import proofs.«141491_j53781580480966_1_alg».proof.Proof.Gen.Pre_finite_inputs
import proofs.«141491_j53781580480966_1_alg».proof.Proof.Gen.ReferenceIdeal.Run
import proofs.«141491_j53781580480966_1_alg».proof.Proof.Gen.ReferenceIdeal.Read
import proofs.«141491_j53781580480966_1_alg».proof.Proof.RefSide
import proofs.«141491_j53781580480966_1_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `GatedProj.outArr` of the five arguments the result depends on: the kernel by its run read
    tile by tile, the reference by its run read operation by operation; the arguments agree. -/
theorem algebraic : Cert.algebraic_KernelIdeal_ReferenceIdeal := by
  intro m ρ m' ρ' _ hagree
  refine ⟨_, Cert.GatedProj.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.GatedProj.Ref.result_eq, (hagree c).1, (hagree c).2.1,
    (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
